-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S128x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x768 : Shape := ⟨2, ![128, 768]⟩
abbrev S4096x768 : Shape := ⟨2, ![4096, 768]⟩
abbrev S8192x4096 : Shape := ⟨2, ![8192, 4096]⟩
abbrev S_ : Shape := ⟨0, ![]⟩

class Facts : Prop where
  bcast_S_S128x768 : S_.BroadcastsInDim S128x768 (![] : Fin 0 → Fin S128x768.rank)
  reducesTo_S128x768_S_d0_1 : S128x768.ReducesTo [0, 1] S_
  h_S_ : 0 < S_.numel
  bcast_S_S4096x768 : S_.BroadcastsInDim S4096x768 (![] : Fin 0 → Fin S4096x768.rank)
  reducesTo_S4096x768_S_d0_1 : S4096x768.ReducesTo [0, 1] S_
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S128x768 .f32) (main_arg1 : FVec F S4096x768 .f32) (main_arg2 : FVec F S8192x4096 .f32) : IVec S_ 1 :=
  let main_v0 : FVec F S128x768 .f32 := Host.absf main_arg0
  let main_cst : FVec F S_ .f32 := constant S_ .f32 0x7F800000#32
  let main_v1 : FVec F S128x768 .f32 := broadcastInDim S128x768 ![] bcast_S_S128x768 main_cst
  let main_v2 : IVec S128x768 1 := cmpf .olt main_v0 main_v1
  let main_c : IVec S_ 1 := constantI S_ 1 1#1
  let main_v3 : IVec S_ 1 := (fun x v => Host.reduce IntOp.andi x v reducesTo_S128x768_S_d0_1 h_S_) main_v2 main_c
  let main_v4 : FVec F S4096x768 .f32 := Host.absf main_arg1
  let main_cst_0 : FVec F S_ .f32 := constant S_ .f32 0x7F800000#32
  let main_v5 : FVec F S4096x768 .f32 := broadcastInDim S4096x768 ![] bcast_S_S4096x768 main_cst_0
  let main_v6 : IVec S4096x768 1 := cmpf .olt main_v4 main_v5
  let main_c_1 : IVec S_ 1 := constantI S_ 1 1#1
  let main_v7 : IVec S_ 1 := (fun x v => Host.reduce IntOp.andi x v reducesTo_S4096x768_S_d0_1 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Kernel.lean ====
abbrev S128x768 : Shape := ⟨2, ![128, 768]⟩
abbrev S4096x768 : Shape := ⟨2, ![4096, 768]⟩
abbrev S8192x4096 : Shape := ⟨2, ![8192, 4096]⟩
abbrev S128x8192 : Shape := ⟨2, ![128, 8192]⟩
abbrev S1024x4096 : Shape := ⟨2, ![1024, 4096]⟩
abbrev S128x1024 : Shape := ⟨2, ![128, 1024]⟩
abbrev S128x4096 : Shape := ⟨2, ![128, 4096]⟩
abbrev S128x2048 : Shape := ⟨2, ![128, 2048]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S128x768, .f32⟩
  | .hbm, ⟨1, _⟩ => ⟨S4096x768, .f32⟩
  | .hbm, ⟨2, _⟩ => ⟨S8192x4096, .f32⟩
  | .hbm, ⟨3, _⟩ => ⟨S128x8192, .f32⟩
  | .local _ .vmem, ⟨0, _⟩ => ⟨S128x768, .f32⟩
  | .local _ .vmem, ⟨1, _⟩ => ⟨S4096x768, .f32⟩
  | .local _ .vmem, ⟨2, _⟩ => ⟨S1024x4096, .f32⟩
  | .local _ .vmem, ⟨3, _⟩ => ⟨S1024x4096, .f32⟩
  | .local _ .vmem, ⟨4, _⟩ => ⟨S128x1024, .f32⟩
  | .local _ .vmem, ⟨5, _⟩ => ⟨S128x1024, .f32⟩
  | .local _ .vmem, ⟨6, _⟩ => ⟨S128x4096, .f32⟩
  | _, _ => ⟨S128x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S128x768_S128x768_0_0 : ∀ a, (![0, 0] : Fin 2 → Nat) a + S128x768.size a ≤ S128x768.size a
  h_S128x768 : 0 < S128x768.numel
  inb_S4096x768_S4096x768_0_0 : ∀ a, (![0, 0] : Fin 2 → Nat) a + S4096x768.size a ≤ S4096x768.size a
  h_S4096x768 : 0 < S4096x768.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x4096_S128x2048_0_0 : ∀ a, (![0, 0] : Fin 2 → Nat) a + S128x2048.size a ≤ S128x4096.size a
  h_S128x2048 : 0 < S128x2048.numel
  inb_S1024x4096_S1024x2048_0_0 : ∀ a, (![0, 0] : Fin 2 → Nat) a + S1024x2048.size a ≤ S1024x4096.size a
  h_S1024x2048 : 0 < S1024x2048.numel
  inb_S128x4096_S128x2048_0_2048 : ∀ a, (![0, 2048] : Fin 2 → Nat) a + S128x2048.size a ≤ S128x4096.size a
  inb_S1024x4096_S1024x2048_0_2048 : ∀ a, (![0, 2048] : Fin 2 → Nat) a + S1024x2048.size a ≤ S1024x4096.size a
  inb_S128x1024_S128x1024_0_0 : ∀ a, (![0, 0] : Fin 2 → Nat) a + S128x1024.size a ≤ S128x1024.size a
  h_S128x1024 : 0 < S128x1024.numel
  dot_S128x768_S4096x768_S128x4096_1_1_0_0_n_n_wf : DotDims.WF S128x768 S4096x768 S128x4096 [1] [1] [0] [0] [] []
  dot_S128x2048_S1024x2048_S128x1024_1_1_0_0_n_n_wf : DotDims.WF S128x2048 S1024x2048 S128x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x768.size a ≤ S128x768.size a
  hwx0_0 : ∀ i : grid0.Coords, EltTy.bits .f32 = 32 ∨ (Rect.block (s := S128x768) S128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x768.size a ≤ S4096x768.size a
  hwx0_1 : ∀ i : grid0.Coords, EltTy.bits .f32 = 32 ∨ (Rect.block (s := S4096x768) S4096x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4096.size a ≤ S8192x4096.size a
  hwx0_2 : ∀ i : grid0.Coords, EltTy.bits .f32 = 32 ∨ (Rect.block (s := S8192x4096) S1024x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x8192.size a
  hwx0_3 : ∀ i : grid0.Coords, EltTy.bits .f32 = 32 ∨ (Rect.block (s := S128x8192) S128x1024.size (cc0_transform_3 i) (hinb0_3 i)).WholeWords (EltTy.packing .f32)

variable [Facts₀]

def dot_S128x768_S4096x768_S128x4096_1_1_0_0_n_n : DotDims S128x768 S4096x768 S128x4096 where
  lhsContracting := [1]
  rhsContracting := [1]
  lhsNonContracting := [0]
  rhsNonContracting := [0]
  lhsBatch := []
  rhsBatch := []
  wf := dot_S128x768_S4096x768_S128x4096_1_1_0_0_n_n_wf
def dot_S128x2048_S1024x2048_S128x1024_1_1_0_0_n_n : DotDims S128x2048 S1024x2048 S128x1024 where
  lhsContracting := [1]
  rhsContracting := [1]
  lhsNonContracting := [0]
  rhsNonContracting := [0]
  lhsBatch := []
  rhsBatch := []
  wf := dot_S128x2048_S1024x2048_S128x1024_1_1_0_0_n_n_wf

abbrev win0_0 : Pipeline.Window sig grid0 :=
  Pipeline.Window.ofSpec (Memref.whole main_arg0) S128x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x768 : Shape := ⟨2, ![128, 768]⟩
abbrev S4096x768 : Shape := ⟨2, ![4096, 768]⟩
abbrev S8192x4096 : Shape := ⟨2, ![8192, 4096]⟩
abbrev S768x4096 : Shape := ⟨2, ![768, 4096]⟩
abbrev S128x4096 : Shape := ⟨2, ![128, 4096]⟩
abbrev S4096x8192 : Shape := ⟨2, ![4096, 8192]⟩
abbrev S128x8192 : Shape := ⟨2, ![128, 8192]⟩

abbrev nBuf : Space → Nat
  | .hbm => 8
  | .vmem => 0
  | .smem => 0
  | _ => 0

abbrev bufTy : (tb : Table) → Fin (tcTables nBuf tb) → BufTy
  | .hbm, ⟨0, _⟩ => ⟨S128x768, .f32⟩
  | .hbm, ⟨1, _⟩ => ⟨S4096x768, .f32⟩
  | .hbm, ⟨2, _⟩ => ⟨S8192x4096, .f32⟩
  | .hbm, ⟨3, _⟩ => ⟨S768x4096, .f32⟩
  | .hbm, ⟨4, _⟩ => ⟨S128x4096, .f32⟩
  | .hbm, ⟨5, _⟩ => ⟨S128x4096, .f32⟩
  | .hbm, ⟨6, _⟩ => ⟨S4096x8192, .f32⟩
  | .hbm, ⟨7, _⟩ => ⟨S128x8192, .f32⟩
  | _, _ => ⟨S128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S4096x768_S768x4096_1_0 : S4096x768.Transposes [1, 0] S768x4096
  transposes_S8192x4096_S4096x8192_1_0 : S8192x4096.Transposes [1, 0] S4096x8192
  dot_S128x768_S768x4096_S128x4096_1_0_0_1_n_n_wf : DotDims.WF S128x768 S768x4096 S128x4096 [1] [0] [0] [1] [] []
  dot_S128x4096_S4096x8192_S128x8192_1_0_0_1_n_n_wf : DotDims.WF S128x4096 S4096x8192 S128x8192 [1] [0] [0] [1] [] []

variable [Facts₀]

def dot_S128x768_S768x4096_S128x4096_1_0_0_1_n_n : DotDims S128x768 S768x4096 S128x4096 where
  lhsContracting := [1]
  rhsContracting := [0]
  lhsNonContracting := [0]
  rhsNonContracting := [1]
  lhsBatch := []
  rhsBatch := []
  wf := dot_S128x768_S768x4096_S128x4096_1_0_0_1_n_n_wf
def dot_S128x4096_S4096x8192_S128x8192_1_0_0_1_n_n : DotDims S128x4096 S4096x8192 S128x8192 where
  lhsContracting := [1]
  rhsContracting := [0]
  lhsNonContracting := [0]
  rhsNonContracting := [1]
  lhsBatch := []
  rhsBatch := []
  wf := dot_S128x4096_S4096x8192_S128x8192_1_0_0_1_n_n_wf

class Facts : Prop extends Facts₀ where

variable [Facts]
-- ==== Proof.CasePieces.lean ====
/-
  What one grid point leaves behind, case by case, as plain terms of what it read.

  The body keeps the encoded hypervectors `H = sign (x · projᵀ)` in a scratch buffer of 128 × 4096 entries.
  At the first point of the grid it computes `H` from the two whole input blocks and stores it, covering the
  scratch; at every later point the scratch is only read.  At every point the output block is the sum of two
  products over the two halves of the contracted axis: columns [0, 2048) and [2048, 4096) of the scratch against
  the same columns of the point's block of centroids.

  Here the pieces the body's run found for each buffer are read back as those terms: a covering store leaves its
  payload, a load of a whole buffer reads its contents, and a load of columns of the scratch that the same point
  has just stored whole reads those columns of what was stored.
-/
import proofs.«160216_g29317446762593_cont_9to1_849_20_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.CaseValue

open Cert.KernelIdeal Cert.KernelIdeal.Gen

variable {F : FTy → Type} [FloatOps F]

theorem hz : (![0, 0] : Fin 2 → Nat) = fun _ => 0 := funext fun a => by fin_cases a <;> rfl

/-- Columns [0, 2048) of a 128 × 4096 array. -/
abbrev hvLo (X : Vec F S128x4096 .f32) : Vec F S128x2048 .f32 :=
  View.ld X (Rect.unit (s := S128x4096) ![0, 0] S128x2048.size inb_S128x4096_S128x2048_0_0)

/-- Columns [2048, 4096) of a 128 × 4096 array. -/
abbrev hvHi (X : Vec F S128x4096 .f32) : Vec F S128x2048 .f32 :=
  View.ld X (Rect.unit (s := S128x4096) ![0, 2048] S128x2048.size inb_S128x4096_S128x2048_0_2048)

/-- Columns [0, 2048) of a 1024 × 4096 block of centroids. -/
abbrev cnLo (X : Vec F S1024x4096 .f32) : Vec F S1024x2048 .f32 :=
  View.ld X (Rect.unit (s := S1024x4096) ![0, 0] S1024x2048.size inb_S1024x4096_S1024x2048_0_0)

/-- Columns [2048, 4096) of a 1024 × 4096 block of centroids. -/
abbrev cnHi (X : Vec F S1024x4096 .f32) : Vec F S1024x2048 .f32 :=
  View.ld X (Rect.unit (s := S1024x4096) ![0, 2048] S1024x2048.size inb_S1024x4096_S1024x2048_0_2048)

/-- A later point (the scratch holding `xs`): the output block is the two half products of `xs` against the
    point's centroids; its one store covers the block and its loads read whole buffers' columns. -/
theorem block_later (c : Dev nD) (i : grid0.Coords) (a1 : Memref sig .tc .vmem S128x768 .f32) (h1 : a1.IsWhole)
    (a2 : Memref sig .tc .vmem S4096x768 .f32) (h2 : a2.IsWhole) (a3 : Memref sig .tc .vmem S1024x4096 .f32) (h3 : a3.IsWhole)
    (a4 : Memref sig .tc .vmem S128x1024 .f32) (h4 : a4.IsWhole) (a5 : Memref sig .tc .vmem S128x4096 .f32) (h5 : a5.IsWhole)
    (hc : ¬cond0_0 i) (x0 : Vec F S128x768 .f32) (x1 : Vec F S4096x768 .f32) (x2 : Vec F S1024x4096 .f32) (xs : Vec F S128x4096 .f32) :
    out0_B_3 c i a1 h1 a2 h2 a3 h3 a4 h4 a5 h5 hc x0 x1 x2 xs = k0_pay2 (hvLo xs) (cnLo x2) (hvHi xs) (cnHi x2) := by
  unfold out0_B_3
  rw [View.read_writes_eq_canon _ _ _ (cover0_B_3 c i a1 h1 a2 h2 a3 h3 a4 h4 a5 h5 hc x0 x1 x2 xs)]
  unfold kernelRun0_B
  dsimp only
  rw [View.canon_unit_zero hz]
  simp only [View.readAt_eq_ld, h5.read_unread, h3.read_unread]

/-- The first point stores the encoding of its two input blocks into the scratch, covering it. -/
theorem scratch_first (c : Dev nD) (i : grid0.Coords) (a1 : Memref sig .tc .vmem S128x768 .f32) (h1 : a1.IsWhole)
    (a2 : Memref sig .tc .vmem S4096x768 .f32) (h2 : a2.IsWhole) (a3 : Memref sig .tc .vmem S1024x4096 .f32) (h3 : a3.IsWhole)
    (a4 : Memref sig .tc .vmem S128x1024 .f32) (h4 : a4.IsWhole) (a5 : Memref sig .tc .vmem S128x4096 .f32) (h5 : a5.IsWhole)
    (hc : cond0_0 i) (x0 : Vec F S128x768 .f32) (x1 : Vec F S4096x768 .f32) (x2 : Vec F S1024x4096 .f32) :
    sout0_A_0 c i a1 h1 a2 h2 a3 h3 a4 h4 a5 h5 hc x0 x1 x2 = k0_pay1 x0 x1 := by
  unfold sout0_A_0
  rw [View.read_writes_eq_canon _ _ _ (scover0_A_0 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, View.ld_unit_zero (S := S128x768) hz,
    View.ld_unit_zero (S := S4096x768) hz]

/-- One store of the whole scratch covers it. -/
theorem scratch_covered (w : Vec F S128x4096 .f32) (y : S128x4096.Idx) :
    ∃ p ∈ [(⟨Rect.unit (s := S128x4096) ![0, 0] S128x4096.size inb_S128x4096_S128x4096_0_0, w⟩ : View.Piece (Elt F) S128x4096 .f32)],
      y ∈ p.1.set :=
  ⟨_, List.mem_singleton_self _, View.mem_set_unit_zero (S := S128x4096) hz inb_S128x4096_S128x4096_0_0 y⟩

/-- The first point's output block: the two half products of the encoding it has just stored (read back through
    the scratch) against the point's centroids. -/
theorem block_first (c : Dev nD) (i : grid0.Coords) (a1 : Memref sig .tc .vmem S128x768 .f32) (h1 : a1.IsWhole)
    (a2 : Memref sig .tc .vmem S4096x768 .f32) (h2 : a2.IsWhole) (a3 : Memref sig .tc .vmem S1024x4096 .f32) (h3 : a3.IsWhole)
    (a4 : Memref sig .tc .vmem S128x1024 .f32) (h4 : a4.IsWhole) (a5 : Memref sig .tc .vmem S128x4096 .f32) (h5 : a5.IsWhole)
    (hc : cond0_0 i) (x0 : Vec F S128x768 .f32) (x1 : Vec F S4096x768 .f32) (x2 : Vec F S1024x4096 .f32) :
    out0_A_3 c i a1 h1 a2 h2 a3 h3 a4 h4 a5 h5 hc x0 x1 x2
      = k0_pay2 (hvLo (k0_pay1 x0 x1)) (cnLo x2) (hvHi (k0_pay1 x0 x1)) (cnHi x2) := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  rw [View.readCov_eq_canon_ld _ _ _ (scratch_covered _), View.readCov_eq_canon_ld _ _ _ (scratch_covered _),
    View.canon_unit_zero hz]
  simp only [View.readAt_eq_ld, h1.read_unread, h2.read_unread, h3.read_unread, View.ld_unit_zero (S := S128x768) hz,
    View.ld_unit_zero (S := S4096x768) hz]

end Cert.KernelIdeal.CaseValue

end
-- ==== Proof.Sweep.lean ====
/-
  The sweep over the eight grid points.

  The windows of `x` and of the projection never move: at every point their block is the whole array.  The
  first point stores the encoding of those two arrays into the scratch; no later point stores into it.  So
  after every point the scratch holds that one encoding (induction on the point), and the block any point
  stores into the output is the two half products of that encoding against the point's block of centroids.
-/
import proofs.«160216_g29317446762593_cont_9to1_849_20_alg».proof.Proof.CasePieces

set_option maxRecDepth 16384

noncomputable section

open Idealize.ShloMosaic Idealize.ShloMosaic.TcCoe Idealize.SL.Sem
open Idealize.ShloMosaic.Pipeline (Dat)

namespace Cert.KernelIdeal.Sweep

open Cert.KernelIdeal Cert.KernelIdeal.Gen Cert.KernelIdeal.CaseValue

variable {F : FTy → Type} [FloatOps F]
variable (m : (ℓ : Loc nD τ sig) → Buf (Elt F) ℓ)

/-- Where each window's block sits at point `t`: the two inputs' at the origin, the centroids' at row block
    `t`, the output's at column block `t` (decided over the eight points). -/
theorem block_index : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The block of `x` at any point is the whole array. -/
theorem x_block (c : Dev nD) (t : Fin cfg0.N) : (iblk m c 0 t : Vec F S128x768 .f32) = V m c main_arg0 := by
  obtain ⟨e0, e1, -⟩ := block_index t
  funext j
  unfold iblk
  rw [View.read_apply]
  show V m c main_arg0 _ = V m c main_arg0 j
  congr 1
  funext a
  apply Fin.ext
  match a with
  | ⟨0, _⟩ => show win0_0.index t (0 : Fin 2) * 128 + 1 * (j 0).val = (j 0).val; rw [e0]; omega
  | ⟨1, _⟩ => show win0_0.index t (1 : Fin 2) * 768 + 1 * (j 1).val = (j 1).val; rw [e1]; omega

/-- The block of the projection at any point is the whole array. -/
theorem p_block (c : Dev nD) (t : Fin cfg0.N) : (iblk m c 1 t : Vec F S4096x768 .f32) = V m c main_arg1 := by
  obtain ⟨-, -, e0, e1, -⟩ := block_index t
  funext j
  unfold iblk
  rw [View.read_apply]
  show V m c main_arg1 _ = V m c main_arg1 j
  congr 1
  funext a
  apply Fin.ext
  match a with
  | ⟨0, _⟩ => show win0_1.index t (0 : Fin 2) * 4096 + 1 * (j 0).val = (j 0).val; rw [e0]; omega
  | ⟨1, _⟩ => show win0_1.index t (1 : Fin 2) * 768 + 1 * (j 1).val = (j 1).val; rw [e1]; omega

/-- The encoding of the two whole input arrays: what the scratch holds from the first point on. -/
abbrev encoded (c : Dev nD) : Vec F S128x4096 .f32 := k0_pay1 (V m c main_arg0) (V m c main_arg1)

/-- The first point stores the encoding into the scratch. -/
theorem scratch_zero (c : Dev nD) (h : 0 < cfg0.N) : (outsAt0 m c 0 h).2 = encoded m c := by
  rw [outsAt0_A m c ⟨0, h⟩ (Nat.zero_mod _)]
  dsimp only
  exact (scratch_first c (grid0.coords ⟨0, h⟩) (ms0_0 ⟨0, h⟩) (hs0_0 ⟨0, h⟩) (ms0_1 ⟨0, h⟩) (hs0_1 ⟨0, h⟩) (ms0_2 ⟨0, h⟩)
    (hs0_2 ⟨0, h⟩) (ms0_3 ⟨0, h⟩) (hs0_3 ⟨0, h⟩) scM0_0 (Memref.isWhole_whole _) ((hcond0_0 ⟨0, h⟩).mpr (Nat.zero_mod _))
    (iblk m c 0 ⟨0, h⟩) (iblk m c 1 ⟨0, h⟩) (iblk m c 2 ⟨0, h⟩)).trans
    (congrArg₂ k0_pay1 (x_block m c ⟨0, h⟩) (p_block m c ⟨0, h⟩))

/-- A later point leaves the scratch as the point before left it. -/
theorem scratch_succ (c : Dev nD) (n : ℕ) (h : n + 1 < cfg0.N) :
    (outsAt0 m c (n + 1) h).2 = (outsAt0 m c n (Nat.lt_of_succ_lt h)).2 := by
  have hN : cfg0.N = 8 := N_0
  have hB : ¬(⟨n + 1, h⟩ : Fin cfg0.N).val % 8 = 0 := by dsimp only; omega
  rw [outsAt0_B m c ⟨n + 1, h⟩ hB]
  rfl

/-- After every point the scratch holds the encoding: stored at the first point, kept by the others. -/
theorem scratch_eq (c : Dev nD) (n : ℕ) : ∀ h : n < cfg0.N, (outsAt0 m c n h).2 = encoded m c := by
  induction n with
  | zero => exact fun h => scratch_zero m c h
  | succ n ih => exact fun h => (scratch_succ m c n h).trans (ih (Nat.lt_of_succ_lt h))

/-- The block of centroids at point `t`: rows [1024 t, 1024 t + 1024) of the array. -/
abbrev centroids_block (c : Dev nD) (t : Fin cfg0.N) : Vec F S1024x4096 .f32 := iblk m c 2 t

/-- The block point `t` stores into the output: the two half products of the encoding against the point's
    block of centroids — at the first point through the scratch it has just stored, later through the scratch
    as the point before left it. -/
theorem block_eq (c : Dev nD) (t : Fin cfg0.N) :
    (outsAt0 m c t.val t.isLt).1
      = k0_pay2 (hvLo (encoded m c)) (cnLo (centroids_block m c t)) (hvHi (encoded m c)) (cnHi (centroids_block m c t)) := by
  by_cases h0 : t.val % 8 = 0
  · rw [outsAt0_A m c t h0]
    dsimp only
    exact (block_first c (grid0.coords t) (ms0_0 t) (hs0_0 t) (ms0_1 t) (hs0_1 t) (ms0_2 t) (hs0_2 t) (ms0_3 t) (hs0_3 t)
      scM0_0 (Memref.isWhole_whole _) ((hcond0_0 t).mpr h0) (iblk m c 0 t) (iblk m c 1 t) (iblk m c 2 t)).trans
      (congrArg (fun H : Vec F S128x4096 .f32 =>
          k0_pay2 (hvLo H) (cnLo (centroids_block m c t)) (hvHi H) (cnHi (centroids_block m c t)))
        (congrArg₂ k0_pay1 (x_block m c t) (p_block m c t)))
  · rw [outsAt0_B m c t h0]
    dsimp only
    exact (block_later c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) (iblk m c 0 t) (iblk m c 1 t) (iblk m c 2 t)
      (outsAt0 m c (t.val - 1) (Nat.lt_of_le_of_lt (Nat.sub_le _ _) t.isLt)).2).trans
      (congrArg (fun H : Vec F S128x4096 .f32 =>
          k0_pay2 (hvLo H) (cnLo (centroids_block m c t)) (hvHi H) (cnHi (centroids_block m c t)))
        (scratch_eq m c (t.val - 1) (Nat.lt_of_le_of_lt (Nat.sub_le _ _) t.isLt)))

end Cert.KernelIdeal.Sweep

end
-- ==== Proof.LibRowBlocks.lean ====
/-
  Rows of blocks: layout operations of a block of tokens read at an index, and a transposed contraction.

  A kernel that treats a block of `a` groups of `b` tokens as `n = a · b` rows views an `[a, b, c]` array as
  `[n, c]` and back: row `q = r · b + l` of the merged view is token `l` of group `r`.  A per-row statistic
  lives in a column `[n, 1]`: a vector `[n]` cast to a column, a column broadcast along the row.  A `[1, b, c]`
  table is broadcast over the `a` groups.  A one-axis sum of an `[n, c]` array reads, at row `q`, the sum of
  that row.  A contraction `l · rᵀ` — the second axes of both operands contracted, no batch axis — reads at
  `(q, d)` the sum over `p` of `l (q, p) · r (d, p)`; the same with a rank-4 left operand whose last axis is
  contracted.  All of it at any extents.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowBlocks

open Idealize.ShloMosaic Idealize.ShloMosaic.ValueIdx

variable {α : Type}

/-- `[a, b, c]` viewed `[n, c]`: row `q = r · b + l` is entry `(r, l)`. -/
theorem shapeCast_merge_apply {a b c n : ℕ} (x : (⟨3, ![a, b, c]⟩ : Shape).Idx → α)
    (h : (⟨3, ![a, b, c]⟩ : Shape).ShapeCasts ⟨2, ![n, c]⟩) (r : Fin a) (l : Fin b) (d : Fin c) (q : Fin n)
    (hq : q.val = r.val * b + l.val) : shapeCast ⟨2, ![n, c]⟩ x h (ix2 q d) = x (ix3 r l d) :=
  shapeCast_apply x h _ _ (by
    rw [Shape.rowMajor_val_three, Shape.rowMajor_val_two]
    show (r.val * b + l.val) * c + d.val = q.val * c + d.val
    rw [hq])

/-- `[n, c]` viewed `[a, b, c]`: entry `(r, l)` is row `q = r · b + l`. -/
theorem shapeCast_split_apply {a b c n : ℕ} (x : (⟨2, ![n, c]⟩ : Shape).Idx → α)
    (h : (⟨2, ![n, c]⟩ : Shape).ShapeCasts ⟨3, ![a, b, c]⟩) (r : Fin a) (l : Fin b) (d : Fin c) (q : Fin n)
    (hq : q.val = r.val * b + l.val) : shapeCast ⟨3, ![a, b, c]⟩ x h (ix3 r l d) = x (ix2 q d) :=
  shapeCast_apply x h _ _ (by
    rw [Shape.rowMajor_val_three, Shape.rowMajor_val_two]
    show q.val * c + d.val = (r.val * b + l.val) * c + d.val
    rw [hq])

/-- A vector `[n]` cast to a column `[n, 1]` reads, at `(q, u)`, the vector at `q`. -/
theorem shapeCast_col_apply {n : ℕ} (x : (⟨1, ![n]⟩ : Shape).Idx → α)
    (h : (⟨1, ![n]⟩ : Shape).ShapeCasts ⟨2, ![n, 1]⟩) (q : Fin n) (u : Fin 1) :
    shapeCast ⟨2, ![n, 1]⟩ x h (ix2 q u) = x (ix1 q) :=
  shapeCast_apply x h _ _ (by
    have hu : u.val = 0 := by omega
    rw [Shape.rowMajor_val_two, Shape.rowMajor_val_one]
    show q.val = q.val * 1 + u.val
    rw [hu, Nat.mul_one, Nat.add_zero])

/-- A column `[n, 1]` broadcast to `[n, c]` reads, at `(q, d)`, the column at row `q`. -/
theorem broadcastTo_col_apply {n c : ℕ} (x : (⟨2, ![n, 1]⟩ : Shape).Idx → α)
    (h : (⟨2, ![n, 1]⟩ : Shape).Broadcasts ⟨2, ![n, c]⟩) (q : Fin n) (d : Fin c) :
    broadcastTo ⟨2, ![n, c]⟩ x h (ix2 q d) = x (ix2 q (0 : Fin 1)) := by
  refine broadcastTo_apply x h (ix2 q d) (ix2 q (0 : Fin 1)) fun ax => ?_
  match ax with
  | ⟨0, _⟩ =>
    show q.val = if n = 1 then 0 else q.val
    split
    · have := q.isLt; omega
    · rfl
  | ⟨1, _⟩ => rfl

/-- A `[1, b, c]` table broadcast over `a` groups reads, at `(r, l, d)`, the table at `(l, d)`. -/
theorem broadcastTo_groups_apply {a b c : ℕ} (x : (⟨3, ![1, b, c]⟩ : Shape).Idx → α)
    (h : (⟨3, ![1, b, c]⟩ : Shape).Broadcasts ⟨3, ![a, b, c]⟩) (r : Fin a) (l : Fin b) (d : Fin c) :
    broadcastTo ⟨3, ![a, b, c]⟩ x h (ix3 r l d) = x (ix3 (0 : Fin 1) l d) := by
  refine broadcastTo_apply x h (ix3 r l d) (ix3 (0 : Fin 1) l d) fun ax => ?_
  match ax with
  | ⟨0, _⟩ => rfl
  | ⟨1, _⟩ =>
    show l.val = if b = 1 then 0 else l.val
    split
    · have := l.isLt; omega
    · rfl
  | ⟨2, _⟩ =>
    show d.val = if c = 1 then 0 else d.val
    split
    · have := d.isLt; omega
    · rfl

/-- The sum of an `[n, c]` array along its second axis reads, at row `q`, the sum of the row's entries. -/
theorem rowSum_apply {n c : ℕ} (src : FVec Ideal ⟨2, ![n, c]⟩ .f32)
    (h : (⟨2, ![n, c]⟩ : Shape).Reduces [1] ⟨1, ![n]⟩) (hφ : FKind.Formats .f32)
    (hacc : (0x00000000#32 : BitVec 32) = 0x00000000#32) (q : Fin n) :
    multiReduction .add [1] ⟨1, ![n]⟩ src 0x00000000#32 h hφ hacc (ix1 q) = ∑ k : Fin c, src (ix2 q k) := by
  refine (Ideal.multiReduction_add_single src 0x00000000#32 h hφ hacc (ix1 q)).trans ?_
  refine Finset.sum_congr rfl fun k _ => congrArg src (funext fun ax => Fin.ext ?_)
  match ax with
  | ⟨0, _⟩ => rfl
  | ⟨1, _⟩ => rfl

/-- A contraction sum re-indexed by the one contracted coordinate: whatever the operand indices are at the
    contraction position with coordinate `k` (`hl`, `hr`), the sum over positions is the sum over `k`. -/
theorem contr_sum {sl sr so : Shape} (D : DotDims sl sr so) (K : ℕ) (hrank : D.contr.rank = 1)
    (hs : D.contr.size ⟨0, by omega⟩ = K) (l : sl.Idx → EReal) (r : sr.Idx → EReal) (j : so.Idx)
    (li : Fin K → sl.Idx) (ri : Fin K → sr.Idx)
    (hl : ∀ k, D.lhsIdx j ((contrEquiv1 D K hrank hs).symm k) = li k)
    (hr : ∀ k, D.rhsIdx j ((contrEquiv1 D K hrank hs).symm k) = ri k) :
    ∑ k : D.contr.Idx, l (D.lhsIdx j k) * r (D.rhsIdx j k) = ∑ k : Fin K, l (li k) * r (ri k) := by
  rw [← Equiv.sum_comp (contrEquiv1 D K hrank hs).symm]
  exact Finset.sum_congr rfl fun k _ => by rw [hl k, hr k]

/-- `l · rᵀ` at rank 2: the second axes contracted, at `(q, d)` the sum over `p` of `l (q, p) · r (d, p)`. -/
theorem abT_sum {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (q : Fin M) (d : Fin N) :
    ∑ k : D.contr.Idx, l (D.lhsIdx (ix2 q d) k) * r (D.rhsIdx (ix2 q d) k) = ∑ p : Fin K, l (ix2 q p) * r (ix2 d p) := by
  obtain ⟨lc, rc, ln, rn, lb, rb, wf⟩ := D
  dsimp only at h1 h2 h3 h4 h5 h6
  subst h1 h2 h3 h4 h5 h6
  generalize hD : (⟨[1], [1], [0], [0], [], [], wf⟩ : DotDims ⟨2, ![M, K]⟩ ⟨2, ![N, K]⟩ ⟨2, ![M, N]⟩) = D
  have hrank : D.contr.rank = 1 := by subst hD; rfl
  have hs : D.contr.size ⟨0, by omega⟩ = K := by subst hD; rfl
  have hlc : D.lhsContracting = [1] := by subst hD; rfl
  have hrc : D.rhsContracting = [1] := by subst hD; rfl
  refine contr_sum D K hrank hs l r (ix2 q d) (fun p => ix2 q p) (fun p => ix2 d p) (fun k => ?_) (fun k => ?_)
  · have hk := contrEquiv1_symm_val D K hrank hs k
    exact funext fun a => Fin.ext (by
      match a with
      | ⟨0, _⟩ =>
        subst hD
        rfl
      | ⟨1, _⟩ => exact (D.lhsIdx_val_of_single hlc _ _).trans hk)
  · have hk := contrEquiv1_symm_val D K hrank hs k
    exact funext fun a => Fin.ext (by
      match a with
      | ⟨0, _⟩ =>
        subst hD
        rfl
      | ⟨1, _⟩ => exact (D.rhsIdx_val_of_single hrc _ _).trans hk)

/-- The vector unit's `l · rᵀ` into a zero accumulator, read at `(q, d)`. -/
theorem matmul_abT_apply {M K N : ℕ} (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (prec : Option ContractPrecision) (l : FVec Ideal ⟨2, ![M, K]⟩ .f32) (r : FVec Ideal ⟨2, ![N, K]⟩ .f32)
    (q : Fin M) (d : Fin N) :
    matmul (F := Ideal) D prec l r (constant ⟨2, ![M, N]⟩ .f32 0x00000000#32) (ix2 q d)
      = ∑ p : Fin K, l (ix2 q p) * r (ix2 d p) :=
  (Ideal.matmul_constant_zero_apply D prec l r (ix2 q d)).trans (abT_sum D h1 h2 h3 h4 h5 h6 l r q d)

end Cert.RowBlocks

end
-- ==== Proof.Payloads.lean ====
/-
  The body's two stored values read at one entry, on the extended reals.

  The value stored into the scratch is, at row `b` and column `d`, the sign of the inner product of row `b` of
  `x` with row `d` of the projection: the product into a zero accumulator is the plain sum over the 768 features,
  and the select chain that builds the sign from a comparison with zero and `1.0` carrying the argument's sign is
  the sign function at every extended real, the two infinities and zero included.

  The value stored into the output block is, at row `b` and column `j`, the sum of two inner products of 2048
  terms each: row `b` of the first half of the hypervectors with row `j` of the first half of the centroids,
  and the same for the second halves.
-/
import proofs.«160216_g29317446762593_cont_9to1_849_20_alg».proof.Proof.Gen.KernelIdeal.Skeleton
import proofs.«160216_g29317446762593_cont_9to1_849_20_alg».proof.Proof.LibRowBlocks
import Idealize.ShloMosaic.PureOps.Ideal.Laws
import Idealize.ShloMosaic.Lib.ValueIdx
import Idealize.ShloMosaic.Lib.Pipeline.Value

noncomputable section

open scoped BigOperators

namespace Cert.KernelIdeal.PayloadValue

open Cert.KernelIdeal Cert.KernelIdeal.Gen Idealize.ShloMosaic Idealize.ShloMosaic.ValueIdx

/-- The stored encoding at `(b, d)`: the sign of `Σ_f x (b, f) · proj (d, f)`. -/
theorem encode_apply (x0 : Vec Ideal S128x768 .f32) (x1 : Vec Ideal S4096x768 .f32) (b : Fin 128) (d : Fin 4096) :
    k0_pay1 (F := Ideal) x0 x1 (ix2 b d) = Ideal.sign (∑ f : Fin 768, x0 (ix2 b f) * x1 (ix2 d f)) := by
  unfold k0_pay1
  refine (congrFun (shapeCast_self _ _) (ix2 b d)).trans ?_
  refine (Ideal.jnp_sign_eq_sign_f32 _).trans ?_
  exact congrArg Ideal.sign
    (Cert.RowBlocks.matmul_abT_apply dot_S128x768_S4096x768_S128x4096_1_1_0_0_n_n rfl rfl rfl rfl rfl rfl none x0 x1 b d)

/-- The stored output block at `(b, j)`: the two half inner products, added. -/
theorem halves_apply (h0 : Vec Ideal S128x2048 .f32) (c0 : Vec Ideal S1024x2048 .f32) (h1 : Vec Ideal S128x2048 .f32)
    (c1 : Vec Ideal S1024x2048 .f32) (b : Fin 128) (j : Fin 1024) :
    k0_pay2 (F := Ideal) h0 c0 h1 c1 (ix2 b j)
      = (∑ k : Fin 2048, h0 (ix2 b k) * c0 (ix2 j k)) + ∑ k : Fin 2048, h1 (ix2 b k) * c1 (ix2 j k) := by
  unfold k0_pay2
  exact congrArg₂ (· + ·)
    (Cert.RowBlocks.matmul_abT_apply dot_S128x2048_S1024x2048_S128x1024_1_1_0_0_n_n rfl rfl rfl rfl rfl rfl none h0 c0 b j)
    (Cert.RowBlocks.matmul_abT_apply dot_S128x2048_S1024x2048_S128x1024_1_1_0_0_n_n rfl rfl rfl rfl rfl rfl none h1 c1 b j)

end Cert.KernelIdeal.PayloadValue

end
-- ==== Proof.Spec.lean ====
/-
  The function both programs compute, and the one law that joins their two arrangements.

  Each of the 128 inputs `x b` (768 features) is encoded as a hypervector of 4096 entries, entry `d` being the
  sign of the inner product of `x b` with row `d` of the projection; the result at `(b, n)` is the inner
  product of that hypervector with centroid `n`:

      enc x p b d   = sign (Σ_f x (b, f) · p (d, f))
      assoc x p c (b, n) = Σ_k enc x p b k · c (n, k).

  One side computes the inner product over the 4096 entries as one sum, the other as the sum over entries
  [0, 2048) plus the sum over entries [2048, 4096).  A finite sum in a commutative monoid is the sum of its two
  halves (`sum_halves`); the extended reals are one, so nothing has to be finite.
-/
import Idealize.ShloMosaic.PureOps.Ideal.Laws
import Idealize.ShloMosaic.Lib.ValueIdx

noncomputable section

open scoped BigOperators

namespace Cert.SignAssoc

open Idealize.ShloMosaic Idealize.ShloMosaic.ValueIdx

/-- Entry `d` of the hypervector of input `b`: the sign of `x b` against row `d` of the projection. -/
def enc (x : (⟨2, ![128, 768]⟩ : Shape).Idx → EReal) (p : (⟨2, ![4096, 768]⟩ : Shape).Idx → EReal)
    (b : Fin 128) (d : Fin 4096) : EReal :=
  Ideal.sign (∑ f : Fin 768, x (ix2 b f) * p (ix2 d f))

/-- The association of every input's hypervector with every centroid. -/
def assoc (x : (⟨2, ![128, 768]⟩ : Shape).Idx → EReal) (p : (⟨2, ![4096, 768]⟩ : Shape).Idx → EReal)
    (cn : (⟨2, ![8192, 4096]⟩ : Shape).Idx → EReal) : (⟨2, ![128, 8192]⟩ : Shape).Idx → EReal :=
  fun i => ∑ k : Fin 4096, enc x p (i 0) k * cn (ix2 (i 1) k)

/-- Entry `k` of the first half, as an entry of the whole. -/
abbrev lo (k : Fin 2048) : Fin 4096 := ⟨k.val, Nat.lt_of_lt_of_le k.isLt (by decide)⟩

/-- Entry `k` of the second half, as an entry of the whole. -/
abbrev hi (k : Fin 2048) : Fin 4096 := ⟨2048 + k.val, by have := k.isLt; omega⟩

/-- A sum over 4096 entries is the sum over the first 2048 plus the sum over the last 2048. -/
theorem sum_halves {M : Type} [AddCommMonoid M] (g : Fin 4096 → M) :
    ∑ k : Fin 4096, g k = (∑ k : Fin 2048, g (lo k)) + ∑ k : Fin 2048, g (hi k) :=
  Fin.sum_univ_add (a := 2048) (b := 2048) g

end Cert.SignAssoc

end
-- ==== Proof.BlockValue.lean ====
/-
  One output block at one entry, on the extended reals.

  With the scratch holding the encoding of the two input blocks `X` and `P`, the block a point stores is, at
  row `b` and column `j`, the inner product over all 4096 entries of the hypervector of input `b` with row
  `j` of the point's block of centroids: the two stored half products run over entries [0, 2048) and
  [2048, 4096) of the same two rows, and a sum is the sum of its halves.
-/
import proofs.«160216_g29317446762593_cont_9to1_849_20_alg».proof.Proof.CasePieces
import proofs.«160216_g29317446762593_cont_9to1_849_20_alg».proof.Proof.Payloads
import proofs.«160216_g29317446762593_cont_9to1_849_20_alg».proof.Proof.Spec

noncomputable section

open scoped BigOperators

namespace Cert.KernelIdeal.BlockValue

open Cert.KernelIdeal Cert.KernelIdeal.Gen Cert.KernelIdeal.CaseValue Cert.KernelIdeal.PayloadValue Cert.SignAssoc
open Idealize.ShloMosaic Idealize.ShloMosaic.ValueIdx

/-- Column `k` of the first half of the hypervectors is column `k` of the whole. -/
theorem hvLo_apply (H : Vec Ideal S128x4096 .f32) (b : Fin 128) (k : Fin 2048) : hvLo H (ix2 b k) = H (ix2 b (lo k)) :=
  congrArg H (funext fun a => Fin.ext (by
    match a with
    | ⟨0, _⟩ => show 0 + 1 * b.val = b.val; omega
    | ⟨1, _⟩ => show 0 + 1 * k.val = k.val; omega))

/-- Column `k` of the second half of the hypervectors is column `2048 + k` of the whole. -/
theorem hvHi_apply (H : Vec Ideal S128x4096 .f32) (b : Fin 128) (k : Fin 2048) : hvHi H (ix2 b k) = H (ix2 b (hi k)) :=
  congrArg H (funext fun a => Fin.ext (by
    match a with
    | ⟨0, _⟩ => show 0 + 1 * b.val = b.val; omega
    | ⟨1, _⟩ => show 2048 + 1 * k.val = 2048 + k.val; omega))

/-- Column `k` of the first half of a block of centroids is column `k` of the block. -/
theorem cnLo_apply (Cb : Vec Ideal S1024x4096 .f32) (j : Fin 1024) (k : Fin 2048) : cnLo Cb (ix2 j k) = Cb (ix2 j (lo k)) :=
  congrArg Cb (funext fun a => Fin.ext (by
    match a with
    | ⟨0, _⟩ => show 0 + 1 * j.val = j.val; omega
    | ⟨1, _⟩ => show 0 + 1 * k.val = k.val; omega))

/-- Column `k` of the second half of a block of centroids is column `2048 + k` of the block. -/
theorem cnHi_apply (Cb : Vec Ideal S1024x4096 .f32) (j : Fin 1024) (k : Fin 2048) : cnHi Cb (ix2 j k) = Cb (ix2 j (hi k)) :=
  congrArg Cb (funext fun a => Fin.ext (by
    match a with
    | ⟨0, _⟩ => show 0 + 1 * j.val = j.val; omega
    | ⟨1, _⟩ => show 2048 + 1 * k.val = 2048 + k.val; omega))

/-- The stored block at `(b, j)`: hypervector `b` against row `j` of the block of centroids, over all 4096 entries. -/
theorem block_apply (X : Vec Ideal S128x768 .f32) (P : Vec Ideal S4096x768 .f32) (Cb : Vec Ideal S1024x4096 .f32)
    (b : Fin 128) (j : Fin 1024) :
    k0_pay2 (F := Ideal) (hvLo (k0_pay1 X P)) (cnLo Cb) (hvHi (k0_pay1 X P)) (cnHi Cb) (ix2 b j)
      = ∑ k : Fin 4096, enc X P b k * Cb (ix2 j k) := by
  refine (halves_apply _ _ _ _ b j).trans ?_
  refine ((sum_halves fun k => enc X P b k * Cb (ix2 j k)).trans ?_).symm
  refine congrArg₂ (· + ·) (Finset.sum_congr rfl fun k _ => ?_) (Finset.sum_congr rfl fun k _ => ?_)
  · rw [hvLo_apply, cnLo_apply, encode_apply]; rfl
  · rw [hvHi_apply, cnHi_apply, encode_apply]; rfl

end Cert.KernelIdeal.BlockValue

end
-- ==== Proof.FinalArray.lean ====
/-
  From the eight stored blocks to the whole result array.

  Point `t` writes its 128 × 1024 block back as columns [1024 t, 1024 t + 1024) of the result, and its block
  of centroids is rows [1024 t, 1024 t + 1024) of the centroids.  So entry `(b, j)` of the block point `t`
  writes back is `assoc` of the three argument arrays at `(b, 1024 t + j)`: the block's row `j` of
  centroids is centroid `1024 t + j`.  The eight column blocks cover the result (column `n` lies in block
  `n / 1024`), so the result array ends holding `assoc` of the arguments.
-/
import proofs.«160216_g29317446762593_cont_9to1_849_20_alg».proof.Proof.Sweep
import proofs.«160216_g29317446762593_cont_9to1_849_20_alg».proof.Proof.BlockValue
import proofs.«160216_g29317446762593_cont_9to1_849_20_alg».proof.Proof.Gen.KernelIdeal.Value

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.FinalArray

open Cert.KernelIdeal Cert.KernelIdeal.Gen Cert.KernelIdeal.Sweep Cert.KernelIdeal.BlockValue Cert.KernelIdeal.CaseValue
open Cert.SignAssoc

variable (m : (ℓ : Loc nD τ sig) → Buf (Elt Ideal) ℓ) (ρ : Dev nD → PrngReg)

/-- The result: `assoc` of the three argument arrays as the region finds them. -/
abbrev result (c : Dev nD) : Buf (Elt Ideal) ((c : Thread nD τ).loc main_v0) :=
  assoc (V m c main_arg0) (V m c main_arg1) (V m c main_arg2)

/-- An entry of the block a point writes back, by its two coordinates. -/
theorem cut_apply (t : Fin cfg0.N) (K : Vec Ideal S128x1024 .f32) (y : ((cfg0.win 3).xblock (grid0.coords t)).Idx)
    (b : Fin 128) (j : Fin 1024) (hb : (y 0).val = b.val) (hj : (y 1).val = j.val) :
    (cfg0.win 3).cut (grid0.coords t) K y = K (ix2 b j) :=
  congrArg K (funext fun a => Fin.ext (by
    match a with
    | ⟨0, _⟩ => exact hb
    | ⟨1, _⟩ => exact hj))

/-- What point `t` writes back is block `t` of the result. -/
theorem flushed_eq (c : Dev nD) (t : Fin cfg0.N) :
    (dats m 0 c).flushed 3 t = ((cfg0.win 3).blk t).view.read (Elt Ideal) (result m c) := by
  obtain ⟨-, -, -, -, e4, e5, e6, e7⟩ := block_index t
  rw [Cert.KernelIdeal.Value.flushed3, block_eq]
  funext y
  have hb : (y 0).val < 128 := (y 0).isLt
  have hj : (y 1).val < 1024 := (y 1).isLt
  refine (cut_apply t _ y ⟨(y 0).val, hb⟩ ⟨(y 1).val, hj⟩ rfl rfl).trans ?_
  refine (block_apply _ _ _ _ _).trans ?_
  show _ = assoc (V m c main_arg0) (V m c main_arg1) (V m c main_arg2) (((cfg0.win 3).blk t).view.emb y)
  unfold assoc
  refine Finset.sum_congr rfl fun k _ => ?_
  refine congrArg₂ (· * ·) (congrArg (fun b => enc (V m c main_arg0) (V m c main_arg1) b k) (Fin.ext ?_)) ?_
  · show (y 0).val = win0_3.index t (0 : Fin 2) * 128 + 1 * (y 0).val
    rw [e6]; omega
  · unfold centroids_block iblk
    rw [View.read_apply]
    show V m c main_arg2 _ = V m c main_arg2 _
    congr 1
    funext a
    apply Fin.ext
    match a with
    | ⟨0, _⟩ =>
      show win0_2.index t (0 : Fin 2) * 1024 + 1 * (y 1).val = win0_3.index t (1 : Fin 2) * 1024 + 1 * (y 1).val
      rw [e4, e7]
    | ⟨1, _⟩ =>
      show win0_2.index t (1 : Fin 2) * 4096 + 1 * k.val = k.val
      rw [e5]; omega

/-- An index of the result is in point `t`'s block iff each coordinate is in the block's range on its axis. -/
theorem mem_blk (t : Fin cfg0.N) (i : S128x8192.Idx) :
    i ∈ ((cfg0.win 3).blk t).view.set ↔ ∀ a : Fin 2, win0_3.index t a * S128x1024.size a ≤ (i a).val
      ∧ (i a).val < win0_3.index t a * S128x1024.size a + S128x1024.size a := by
  show i ∈ ((View.whole main_v0).slice (win0_3.rect t)).set ↔ _
  rw [View.set_slice_whole, Rect.mem_set_unit]
  exact Iff.rfl

/-- Every index of the result is in the block of the point its column names. -/
theorem covered (i : S128x8192.Idx) :
    ∃ t : Fin cfg0.N, (cfg0.win 3).flush t = true ∧ i ∈ ((cfg0.win 3).blk t).view.set := by
  have hN : cfg0.N = 8 := N_0
  have h0 : (i 0).val < 128 := (i 0).isLt
  have h1 : (i 1).val < 8192 := (i 1).isLt
  have ht : (i 1).val / 1024 < cfg0.N := by omega
  obtain ⟨-, -, -, -, -, -, e6, e7⟩ := block_index ⟨(i 1).val / 1024, ht⟩
  refine ⟨⟨(i 1).val / 1024, ht⟩, flush0_3 _, ?_⟩
  rw [mem_blk]
  intro a
  match a with
  | ⟨0, _⟩ =>
    show win0_3.index ⟨(i 1).val / 1024, ht⟩ (0 : Fin 2) * 128 ≤ (i 0).val
      ∧ (i 0).val < win0_3.index ⟨(i 1).val / 1024, ht⟩ (0 : Fin 2) * 128 + 128
    rw [e6]; omega
  | ⟨1, _⟩ =>
    show win0_3.index ⟨(i 1).val / 1024, ht⟩ (1 : Fin 2) * 1024 ≤ (i 1).val
      ∧ (i 1).val < win0_3.index ⟨(i 1).val / 1024, ht⟩ (1 : Fin 2) * 1024 + 1024
    rw [e7]
    show (i 1).val / 1024 * 1024 ≤ (i 1).val ∧ (i 1).val < (i 1).val / 1024 * 1024 + 1024
    omega

/-- The result array after the run. -/
theorem final (c : Dev nD) : (dats m 0 c).arrAt 3 cfg0.N = result m c :=
  (dats m 0 c).arrAt_eq_of_cover 3 (result m c) (fun t _ => flushed_eq m c t) covered

/-- The run, read: the result array at `assoc` of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.FinalArray

end
-- ==== Proof.RefValue.lean ====
/-
  The reference's result is `assoc` of its three arguments.

  The reference transposes the projection, contracts `x` with it over the 768 features, takes the sign,
  transposes the centroids and contracts the signs with them over the 4096 entries.  Read at `(b, n)`, one
  operation at a time: a transpose swaps the two coordinates, so the first contraction reads row `k` of the
  projection and the second reads row `n` of the centroids; the host's sign is the sign function of the
  extended reals.
-/
import proofs.«160216_g29317446762593_cont_9to1_849_20_alg».proof.Proof.Gen.ReferenceIdeal.Read
import proofs.«160216_g29317446762593_cont_9to1_849_20_alg».proof.Proof.Spec

noncomputable section

open scoped BigOperators

namespace Cert.ReferenceIdeal.RefValue

open Cert.ReferenceIdeal Cert.ReferenceIdeal.Read Cert.SignAssoc
open Idealize.ShloMosaic Idealize.ShloMosaic.ValueIdx

/-- The first contraction's left operand at term `f` of entry `(b, k)`: `x (b, f)`. -/
theorem x_idx (i : S128x8192.Idx) (k : Fin 4096) (f : Fin 768) :
    lidx_main_v1 (lidx_main_v4 i k) f = ix2 (i 0) f :=
  funext fun a => Fin.ext (by match a with | ⟨0, _⟩ => rfl | ⟨1, _⟩ => rfl)

/-- Its right operand, through the transpose: row `k` of the projection at feature `f`. -/
theorem p_idx (i : S128x8192.Idx) (k : Fin 4096) (f : Fin 768) :
    idx_main_v0 (ridx_main_v1 (lidx_main_v4 i k) f) = ix2 k f :=
  funext fun a => Fin.ext (by match a with | ⟨0, _⟩ => rfl | ⟨1, _⟩ => rfl)

/-- The second contraction's right operand, through the transpose: row `n` of the centroids at entry `k`. -/
theorem c_idx (i : S128x8192.Idx) (k : Fin 4096) :
    idx_main_v3 (ridx_main_v4 i k) = ix2 (i 1) k :=
  funext fun a => Fin.ext (by match a with | ⟨0, _⟩ => rfl | ⟨1, _⟩ => rfl)

/-- The reference's result array, as a function of its arguments, is `assoc`. -/
theorem result_eq (x0 : (⟨S128x768, .f32⟩ : BufTy).Contents (Elt Ideal)) (x1 : (⟨S4096x768, .f32⟩ : BufTy).Contents (Elt Ideal))
    (x2 : (⟨S8192x4096, .f32⟩ : BufTy).Contents (Elt Ideal)) :
    val_main_v4 (F := Ideal) x0 x1 x2 = assoc x0 x1 x2 := by
  funext i
  rw [val_main_v4_apply]
  refine Finset.sum_congr rfl fun k _ => ?_
  rw [val_main_v2_apply, val_main_v1_apply, val_main_v3_apply, c_idx, Ideal.hostUnary_sign_def]
  refine congrArg₂ (· * ·) (congrArg Ideal.sign (Finset.sum_congr rfl fun f _ => ?_)) rfl
  rw [val_main_v0_apply, x_idx, p_idx]
  rfl

end Cert.ReferenceIdeal.RefValue

end
-- ==== Proof.lean ====
/-
  Hyperdimensional classification, `sign (x · projᵀ) · centroidsᵀ`, computed two ways.

  Each of 128 inputs of 768 features is encoded as a hypervector of 4096 signs — entry `d` is the sign of the
  inner product of the input with row `d` of the projection — and associated with each of 8192 centroids by
  the inner product over the 4096 entries (Proof/Spec.lean, `assoc`).

  The kernel sweeps the centroids in eight blocks of 1024.  At the first block it encodes the inputs into a
  scratch buffer, which every later block only reads (Proof/Sweep.lean: by induction on the block, the scratch
  holds the encoding after each of them); for each block it stores the sum of two products over the two halves
  of the 4096 entries (Proof/CasePieces.lean, Proof/Payloads.lean).  Its sign is a select chain over a comparison
  with zero, which is the sign function at every extended real.  A sum over 4096 entries is the sum of its two
  halves, so each stored block is `assoc` on its 1024 columns (Proof/BlockValue.lean), and the eight blocks cover
  the result (Proof/FinalArray.lean).  The reference transposes, contracts, takes the sign, transposes and
  contracts; read one operation at a time it is `assoc` too (Proof/RefValue.lean).

  The two arrangements differ only in how a finite sum is grouped, so the equality holds on all extended reals
  and the precondition is not used.
-/
import proofs.«160216_g29317446762593_cont_9to1_849_20_alg».proof.Defs
import proofs.«160216_g29317446762593_cont_9to1_849_20_alg».proof.Proof.Gen.Kernel
import proofs.«160216_g29317446762593_cont_9to1_849_20_alg».proof.Proof.Gen.Kernel.Skeleton
import proofs.«160216_g29317446762593_cont_9to1_849_20_alg».proof.Proof.Gen.Kernel.Launch
import proofs.«160216_g29317446762593_cont_9to1_849_20_alg».proof.Proof.Gen.Kernel.Points
import proofs.«160216_g29317446762593_cont_9to1_849_20_alg».proof.Proof.Gen.Kernel.Frame
import proofs.«160216_g29317446762593_cont_9to1_849_20_alg».proof.Proof.Gen.KernelIdeal
import proofs.«160216_g29317446762593_cont_9to1_849_20_alg».proof.Proof.Gen.KernelIdeal.Skeleton
import proofs.«160216_g29317446762593_cont_9to1_849_20_alg».proof.Proof.Gen.KernelIdeal.Launch
import proofs.«160216_g29317446762593_cont_9to1_849_20_alg».proof.Proof.Gen.KernelIdeal.Points
import proofs.«160216_g29317446762593_cont_9to1_849_20_alg».proof.Proof.Gen.KernelIdeal.Frame
import proofs.«160216_g29317446762593_cont_9to1_849_20_alg».proof.Proof.Gen.ReferenceIdeal
import proofs.«160216_g29317446762593_cont_9to1_849_20_alg».proof.Proof.Gen.Pre_finite_inputs
import proofs.«160216_g29317446762593_cont_9to1_849_20_alg».proof.Proof.Gen.KernelIdeal.Value
import proofs.«160216_g29317446762593_cont_9to1_849_20_alg».proof.Proof.Gen.ReferenceIdeal.Run
import proofs.«160216_g29317446762593_cont_9to1_849_20_alg».proof.Proof.Gen.ReferenceIdeal.Read
import proofs.«160216_g29317446762593_cont_9to1_849_20_alg».proof.Proof.FinalArray
import proofs.«160216_g29317446762593_cont_9to1_849_20_alg».proof.Proof.RefValue
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The one rewrite of the idealization: `1.0` carrying the sign bit of the product, read as `-1` below zero and
    `1` elsewhere — the rule's own statement at this shape. -/
theorem preserves : Cert.preserves_Kernel_KernelIdeal :=
  IdealRules.sign_bit.statement Cert.KernelIdeal.S128x4096 .f32

/-- On the extended reals both programs end with `assoc` of arguments that agree. -/
theorem algebraic : Cert.algebraic_KernelIdeal_ReferenceIdeal := by
  intro m ρ m' ρ' _ hagree
  refine ⟨fun c => Cert.KernelIdeal.FinalArray.result m c, Cert.KernelIdeal.FinalArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq, (hagree c).1, (hagree c).2.1,
    (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
